-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S256x1024 : Shape := ⟨2, ![256, 1024]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x1024 .f32) (main_arg1 : FVec F S256x1024 .f32) (main_arg2 : FVec F S256 .f32) (main_arg3 : FVec F S64x256 .f32) (main_arg4 : FVec F S64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S65536x1024 : Shape := ⟨2, ![65536, 1024]⟩
abbrev S256x1024 : Shape := ⟨2, ![256, 1024]⟩
abbrev S256 : Shape := ⟨1, ![256]⟩
abbrev S64x256 : Shape := ⟨2, ![64, 256]⟩
abbrev S64 : Shape := ⟨1, ![64]⟩
abbrev S1024x256 : Shape := ⟨2, ![1024, 256]⟩
abbrev S256x64 : Shape := ⟨2, ![256, 64]⟩
abbrev S1x256 : Shape := ⟨2, ![1, 256]⟩
abbrev S1x64 : Shape := ⟨2, ![1, 64]⟩
abbrev S32768x2x1024 : Shape := ⟨3, ![32768, 2, 1024]⟩
abbrev S32768x128 : Shape := ⟨2, ![32768, 128]⟩
abbrev S1024x2x1024 : Shape := ⟨3, ![1024, 2, 1024]⟩
abbrev S1024x128 : Shape := ⟨2, ![1024, 128]⟩
abbrev S1024x1x1024 : Shape := ⟨3, ![1024, 1, 1024]⟩
abbrev S1024x1024 : Shape := ⟨2, ![1024, 1024]⟩
abbrev S1024x64 : Shape := ⟨2, ![1024, 64]⟩
abbrev S65536x64 : Shape := ⟨2, ![65536, 64]⟩

abbrev nBuf : Space → Nat
  | .hbm => 14
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S1024x256, .f32⟩
  | .hbm, ⟨6, _⟩ => ⟨S1024x256, .bf16⟩
  | .hbm, ⟨7, _⟩ => ⟨S256x64, .f32⟩
  | .hbm, ⟨8, _⟩ => ⟨S256x64, .bf16⟩
  | .hbm, ⟨9, _⟩ => ⟨S1x256, .f32⟩
  | .hbm, ⟨10, _⟩ => ⟨S1x64, .f32⟩
  | .hbm, ⟨11, _⟩ => ⟨S32768x2x1024, .f32⟩
  | .hbm, ⟨12, _⟩ => ⟨S32768x128, .f32⟩
  | .hbm, ⟨13, _⟩ => ⟨S65536x64, .f32⟩
  | .local _ .vmem, ⟨0, _⟩ => ⟨S1024x2x1024, .f32⟩
  | .local _ .vmem, ⟨1, _⟩ => ⟨S1024x2x1024, .f32⟩
  | .local _ .vmem, ⟨2, _⟩ => ⟨S1024x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S1024x128, .f32⟩
  | .local _ .vmem, ⟨7, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x1024_S1024x256_1_0 : S256x1024.Transposes [1, 0] S1024x256
  bitsLt_bf16_f32 : FTy.bits .bf16 < FTy.bits .f32
  transposes_S64x256_S256x64_1_0 : S64x256.Transposes [1, 0] S256x64
  shapeCasts_S256_S1x256 : S256.ShapeCasts S1x256
  shapeCasts_S64_S1x64 : S64.ShapeCasts S1x64
  shapeCasts_S65536x1024_S32768x2x1024 : S65536x1024.ShapeCasts S32768x2x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S256 : S1x256.ShapeCasts S256
  inb_S1x64_S1x64_0_0 : ∀ a, (![0, 0] : Fin 2 → Nat) a + S1x64.size a ≤ S1x64.size a
  h_S1x64 : 0 < S1x64.numel
  shapeCasts_S1x64_S64 : S1x64.ShapeCasts S64
  inb_S1024x2x1024_S1024x1x1024_0_0_0 : ∀ a, (![0, 0, 0] : Fin 3 → Nat) a + S1024x1x1024.size a ≤ S1024x2x1024.size a
  h_S1024x1x1024 : 0 < S1024x1x1024.numel
  shapeCasts_S1024x1x1024_S1024x1024 : S1024x1x1024.ShapeCasts S1024x1024
  inb_S1024x2x1024_S1024x1x1024_0_1_0 : ∀ a, (![0, 1, 0] : Fin 3 → Nat) a + S1024x1x1024.size a ≤ S1024x2x1024.size a
  broadcasts_S1x256_S1024x256 : S1x256.Broadcasts S1024x256
  broadcasts_S1x64_S1024x64 : S1x64.Broadcasts S1024x64
  concatenates_S1024x64_S1024x64_S1024x128_d1 : Shape.Concatenates [S1024x64, S1024x64] S1024x128 1
  inb_S1024x128_S1024x128_0_0 : ∀ a, (![0, 0] : Fin 2 → Nat) a + S1024x128.size a ≤ S1024x128.size a
  h_S1024x128 : 0 < S1024x128.numel
  shapeCasts_S32768x128_S65536x64 : S32768x128.ShapeCasts S65536x64
  dot_S1024x1024_S1024x256_S1024x256_1_0_0_1_n_n_wf : DotDims.WF S1024x1024 S1024x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x1024.size a ≤ S32768x2x1024.size a
  hwx0_0 : ∀ i : grid0.Coords, EltTy.bits .f32 = 32 ∨ (Rect.block (s := S32768x2x1024) S1024x2x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v6) S1024x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S256x1024 : Shape := ⟨2, ![256, 1024]⟩
abbrev S256 : Shape := ⟨1, ![256]⟩
abbrev S64x256 : Shape := ⟨2, ![64, 256]⟩
abbrev S64 : Shape := ⟨1, ![64]⟩
abbrev S65536x256 : Shape := ⟨2, ![65536, 256]⟩
abbrev S1x256 : Shape := ⟨2, ![1, 256]⟩
abbrev S_ : Shape := ⟨0, ![]⟩
abbrev S65536x64 : Shape := ⟨2, ![65536, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S65536x256, .f32⟩
  | .hbm, ⟨6, _⟩ => ⟨S1x256, .f32⟩
  | .hbm, ⟨7, _⟩ => ⟨S65536x256, .f32⟩
  | .hbm, ⟨8, _⟩ => ⟨S65536x256, .f32⟩
  | .hbm, ⟨9, _⟩ => ⟨S_, .f32⟩
  | .hbm, ⟨10, _⟩ => ⟨S65536x256, .f32⟩
  | .hbm, ⟨11, _⟩ => ⟨S65536x256, .f32⟩
  | .hbm, ⟨12, _⟩ => ⟨S65536x64, .f32⟩
  | .hbm, ⟨13, _⟩ => ⟨S1x64, .f32⟩
  | .hbm, ⟨14, _⟩ => ⟨S65536x64, .f32⟩
  | .hbm, ⟨15, _⟩ => ⟨S65536x64, .f32⟩
  | .hbm, ⟨16, _⟩ => ⟨S_, .f32⟩
  | .hbm, ⟨17, _⟩ => ⟨S65536x64, .f32⟩
  | .hbm, ⟨18, _⟩ => ⟨S65536x64, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  dot_S65536x1024_S256x1024_S65536x256_1_1_0_0_n_n_wf : DotDims.WF S65536x1024 S256x1024 S65536x256 [1] [1] [0] [0] [] []
  dot_S65536x256_S64x256_S65536x64_1_1_0_0_n_n_wf : DotDims.WF S65536x256 S64x256 S65536x64 [1] [1] [0] [0] [] []

variable [Facts₀]

def dot_S65536x1024_S256x1024_S65536x256_1_1_0_0_n_n : DotDims S65536x1024 S256x1024 S65536x256 where
  lhsContracting := [1]
  rhsContracting := [1]
  lhsNonContracting := [0]
  rhsNonContracting := [0]
  lhsBatch := []
  rhsBatch := []
  wf := dot_S65536x1024_S256x1024_S65536x256_1_1_0_0_n_n_wf
def dot_S65536x256_S64x256_S65536x64_1_1_0_0_n_n : DotDims S65536x256 S64x256 S65536x64 where
  lhsContracting := [1]
  rhsContracting := [1]
  lhsNonContracting := [0]
  rhsNonContracting := [0]
  lhsBatch := []
  rhsBatch := []
  wf := dot_S65536x256_S64x256_S65536x64_1_1_0_0_n_n_wf

class Facts : Prop extends Facts₀ where

variable [Facts]
-- ==== Proof.Spec.lean ====
/-
  The function both programs compute, and the two layouts it is held in.

  A two-layer perceptron with rectifiers, one batch row at a time, on the extended reals: for a row a of 1024
  inputs the hidden unit m is max (Σ_k a k · w1 k m + b1 m) 0 and the output o is
  max (Σ_m hidden m · w2 m o + b2 o) 0. The weights arrive output-major (W1[m,k], W2[o,m]); the kernel
  contracts against their transposes, which is the same product term by term.

  The result array is [65536, 64]. The kernel writes it PACKED: consecutive rows 2R and 2R+1 side by side in one
  128-lane row R of a [32768, 128] array (lanes 0..63 hold row 2R, lanes 64..127 row 2R+1), which is the same
  row-major sequence of numbers; one grid point fills 1024 packed rows from its own blocks. Nothing here needs a
  finite value: the two sides are the same sums of the same products.
-/
import Idealize.ShloMosaic.PureOps.Ideal.Laws
import Idealize.ShloMosaic.Lib.ValueIdx

noncomputable section

open scoped BigOperators

namespace Cert.Mlp

open Idealize.ShloMosaic Idealize.ShloMosaic.ValueIdx

/-- The rectifier's threshold: the extended real the f32 zero word denotes (never evaluated: both programs
    carry the same word). -/
abbrev zero : EReal := Ideal.ofBits .f32 0x00000000#32

/-- One unit of a dense layer followed by the rectifier: max (Σ_k a k · w k + b) 0. -/
def neuron {K : Nat} (a w : Fin K → EReal) (b : EReal) : EReal := max ((∑ k : Fin K, a k * w k) + b) zero

/-- One batch row through both layers, at output o; w1 k m and w2 m o are indexed contraction-first. -/
def row (a : Fin 1024 → EReal) (w1 : Fin 1024 → Fin 256 → EReal) (b1 : Fin 256 → EReal)
    (w2 : Fin 256 → Fin 64 → EReal) (b2 : Fin 64 → EReal) (o : Fin 64) : EReal :=
  neuron (fun m => neuron a (fun k => w1 k m) (b1 m)) (fun m => w2 m o) (b2 o)

/-- Row r, output o of the network at the argument arrays. -/
def out (x : (⟨2, ![65536, 1024]⟩ : Shape).Idx → EReal) (W1 : (⟨2, ![256, 1024]⟩ : Shape).Idx → EReal)
    (b1 : (⟨1, ![256]⟩ : Shape).Idx → EReal) (W2 : (⟨2, ![64, 256]⟩ : Shape).Idx → EReal)
    (b2 : (⟨1, ![64]⟩ : Shape).Idx → EReal) (r : Fin 65536) (o : Fin 64) : EReal :=
  row (fun k => x (ix2 r k)) (fun k m => W1 (ix2 m k)) (fun m => b1 (ix1 m)) (fun m o' => W2 (ix2 o' m))
    (fun o' => b2 (ix1 o')) o

/-- THE RESULT: the [65536, 64] array of the network's outputs. -/
def G (x : (⟨2, ![65536, 1024]⟩ : Shape).Idx → EReal) (W1 : (⟨2, ![256, 1024]⟩ : Shape).Idx → EReal)
    (b1 : (⟨1, ![256]⟩ : Shape).Idx → EReal) (W2 : (⟨2, ![64, 256]⟩ : Shape).Idx → EReal)
    (b2 : (⟨1, ![64]⟩ : Shape).Idx → EReal) : (⟨2, ![65536, 64]⟩ : Shape).Idx → EReal :=
  fun i => out x W1 b1 W2 b2 (i 0) (i 1)

/-- The same numbers PACKED two rows to a 128-lane row: entry (R, c) is row 2R + c/64, output c mod 64. -/
def packed (x : (⟨2, ![65536, 1024]⟩ : Shape).Idx → EReal) (W1 : (⟨2, ![256, 1024]⟩ : Shape).Idx → EReal)
    (b1 : (⟨1, ![256]⟩ : Shape).Idx → EReal) (W2 : (⟨2, ![64, 256]⟩ : Shape).Idx → EReal)
    (b2 : (⟨1, ![64]⟩ : Shape).Idx → EReal) : (⟨2, ![32768, 128]⟩ : Shape).Idx → EReal :=
  fun j => out x W1 b1 W2 b2
    ⟨2 * (j 0).val + (j 1).val / 64, by have := idx2_lt0 j; have := idx2_lt1 j; omega⟩
    ⟨(j 1).val % 64, Nat.mod_lt _ (by decide)⟩

/-- What ONE grid point computes from its blocks — 1024 row pairs xb[p, s, k], the transposed weights
    w1[k, m] and w2[m, o], the biases as one-row matrices —: entry (p, c) of its [1024, 128] tile is row (p, c/64)
    of the block through both layers at output c mod 64. -/
def block (xb : (⟨3, ![1024, 2, 1024]⟩ : Shape).Idx → EReal) (w1 : (⟨2, ![1024, 256]⟩ : Shape).Idx → EReal)
    (b1 : (⟨2, ![1, 256]⟩ : Shape).Idx → EReal) (w2 : (⟨2, ![256, 64]⟩ : Shape).Idx → EReal)
    (b2 : (⟨2, ![1, 64]⟩ : Shape).Idx → EReal) (p : Fin 1024) (c : Fin 128) : EReal :=
  row (fun k => xb (ix3 p (⟨c.val / 64, by have := c.isLt; omega⟩ : Fin 2) k)) (fun k m => w1 (ix2 k m))
    (fun m => b1 (ix2 (0 : Fin 1) m)) (fun m o => w2 (ix2 m o)) (fun o => b2 (ix2 (0 : Fin 1) o))
    ⟨c.val % 64, Nat.mod_lt _ (by decide)⟩

/-- A grid point's tile IS its 1024 rows of the packed array, when its blocks are what the arguments hold there:
    row pair T·1024 + p of the paired input, the weights transposed, the biases as rows. -/
theorem block_eq_packed (xb : (⟨3, ![1024, 2, 1024]⟩ : Shape).Idx → EReal) (w1 : (⟨2, ![1024, 256]⟩ : Shape).Idx → EReal)
    (b1b : (⟨2, ![1, 256]⟩ : Shape).Idx → EReal) (w2 : (⟨2, ![256, 64]⟩ : Shape).Idx → EReal)
    (b2b : (⟨2, ![1, 64]⟩ : Shape).Idx → EReal)
    (x : (⟨2, ![65536, 1024]⟩ : Shape).Idx → EReal) (W1 : (⟨2, ![256, 1024]⟩ : Shape).Idx → EReal)
    (b1 : (⟨1, ![256]⟩ : Shape).Idx → EReal) (W2 : (⟨2, ![64, 256]⟩ : Shape).Idx → EReal)
    (b2 : (⟨1, ![64]⟩ : Shape).Idx → EReal) (T : Nat) (hT : T < 32) (p : Fin 1024) (c : Fin 128)
    (hx : ∀ (s : Fin 2) (k : Fin 1024),
      xb (ix3 p s k) = x (ix2 (⟨2 * (T * 1024 + p.val) + s.val, by have := p.isLt; have := s.isLt; omega⟩ : Fin 65536) k))
    (hw1 : ∀ (k : Fin 1024) (m : Fin 256), w1 (ix2 k m) = W1 (ix2 m k))
    (hb1 : ∀ m : Fin 256, b1b (ix2 (0 : Fin 1) m) = b1 (ix1 m))
    (hw2 : ∀ (m : Fin 256) (o : Fin 64), w2 (ix2 m o) = W2 (ix2 o m))
    (hb2 : ∀ o : Fin 64, b2b (ix2 (0 : Fin 1) o) = b2 (ix1 o)) :
    block xb w1 b1b w2 b2b p c
      = packed x W1 b1 W2 b2 (ix2 (⟨T * 1024 + p.val, by have := p.isLt; omega⟩ : Fin 32768) c) := by
  unfold block packed out
  simp only [hx, hw1, hb1, hw2, hb2]

/-- Unpacking: the [65536, 64] result at (r, o) is the packed array at (r / 2, (r mod 2)·64 + o) — the same
    row-major position. -/
theorem packed_unpack (x : (⟨2, ![65536, 1024]⟩ : Shape).Idx → EReal) (W1 : (⟨2, ![256, 1024]⟩ : Shape).Idx → EReal)
    (b1 : (⟨1, ![256]⟩ : Shape).Idx → EReal) (W2 : (⟨2, ![64, 256]⟩ : Shape).Idx → EReal)
    (b2 : (⟨1, ![64]⟩ : Shape).Idx → EReal) (r : Fin 65536) (o : Fin 64) :
    packed x W1 b1 W2 b2 (ix2 (⟨r.val / 2, by have := r.isLt; omega⟩ : Fin 32768)
        (⟨r.val % 2 * 64 + o.val, by have := o.isLt; omega⟩ : Fin 128))
      = out x W1 b1 W2 b2 r o := by
  unfold packed
  refine congrArg₂ (out x W1 b1 W2 b2) (Fin.ext ?_) (Fin.ext ?_)
  · show 2 * (r.val / 2) + (r.val % 2 * 64 + o.val) / 64 = r.val
    have := o.isLt; omega
  · show (r.val % 2 * 64 + o.val) % 64 = o.val
    have := o.isLt; omega

end Cert.Mlp

end
-- ==== Proof.RefG.lean ====
/-
  The reference computes the result array G.

  The host program is x·W1ᵀ (a dot_general contracting both second axes), plus the bias broadcast along the rows,
  a maximum with a broadcast zero, the same again with W2 and b2. Read one operation at a time at an index (r, o),
  it is max (Σ_m max (Σ_k x[r,k]·W1[m,k] + b1[m]) 0 · W2[o,m] + b2[o]) 0: the composed index functions of the
  stages are the coordinates (r, k), (m, k), (o, m) themselves.
-/
import proofs.«100786_j91027536872013_2_alg».proof.Proof.Gen.ReferenceIdeal.Read
import proofs.«100786_j91027536872013_2_alg».proof.Proof.Spec

noncomputable section

open scoped BigOperators

namespace Cert.ReferenceIdeal.RefValue

open Idealize.ShloMosaic Idealize.ShloMosaic.ValueIdx Cert.ReferenceIdeal Cert.ReferenceIdeal.Read

/-- The last stage of the reference's run, as a function of the five arguments, is G. -/
theorem ref_eq (x0 : (⟨S65536x1024, .f32⟩ : BufTy).Contents (Elt Ideal)) (x1 : (⟨S256x1024, .f32⟩ : BufTy).Contents (Elt Ideal))
    (x2 : (⟨S256, .f32⟩ : BufTy).Contents (Elt Ideal)) (x3 : (⟨S64x256, .f32⟩ : BufTy).Contents (Elt Ideal))
    (x4 : (⟨S64, .f32⟩ : BufTy).Contents (Elt Ideal)) :
    val_main_v9 (F := Ideal) x0 x1 x2 x3 x4 = Cert.Mlp.G x0 x1 x2 x3 x4 := by
  funext i
  -- the stages' composed index functions are the coordinates themselves
  have e1 : ∀ (m : Fin 256) (k : Fin 1024), lidx_main_v0 (lidx_main_v5 i m) k = ix2 (i 0) k := fun m k =>
    funext fun a => match a with | ⟨0, _⟩ => rfl | ⟨1, _⟩ => rfl
  have e2 : ∀ (m : Fin 256) (k : Fin 1024), ridx_main_v0 (lidx_main_v5 i m) k = ix2 m k := fun m k =>
    funext fun a => match a with | ⟨0, _⟩ => rfl | ⟨1, _⟩ => rfl
  have e3 : ∀ m : Fin 256, idx_main_v1 (idx_main_v2 (lidx_main_v5 i m)) = ix1 m := fun m =>
    funext fun a => match a with | ⟨0, _⟩ => rfl
  have e4 : ∀ m : Fin 256, ridx_main_v5 i m = ix2 (i 1) m := fun m =>
    funext fun a => match a with | ⟨0, _⟩ => rfl | ⟨1, _⟩ => rfl
  have e5 : idx_main_v6 (idx_main_v7 i) = ix1 (i 1) :=
    funext fun a => match a with | ⟨0, _⟩ => rfl
  rw [val_main_v9_apply, val_main_v8_apply, val_main_v5_apply, val_main_v7_apply, val_main_v6_apply,
    val_main_call1_v0_apply, val_main_call1_cst_apply]
  simp only [val_main_v4_apply, val_main_v3_apply, val_main_v0_apply, val_main_v2_apply, val_main_v1_apply,
    val_main_call0_v0_apply, val_main_call0_cst_apply]
  simp only [e1, e2, e3, e4, e5]
  unfold Cert.Mlp.G Cert.Mlp.out Cert.Mlp.row Cert.Mlp.neuron
  rfl

end Cert.ReferenceIdeal.RefValue

end
-- ==== Proof.Layout.lean ====
/-
  The re-layouts around the kernel, read at an index.

  Four row-major facts over arrays of any element type: pairing consecutive rows ([65536, 1024] viewed
  [32768, 2, 1024]: entry (R, s, k) is row 2R + s), a matrix transpose, a vector viewed as a one-row matrix, and
  unpacking ([32768, 128] viewed [65536, 64]: entry (r, o) is packed entry (r / 2, (r mod 2)·64 + o)). Each is
  an equality of row-major positions, which linear arithmetic decides.
-/
import Idealize.ShloMosaic.Lib.Pipeline.Value
import Idealize.ShloMosaic.Lib.ValueIdx

noncomputable section

namespace Cert.Mlp.Layout

open Idealize.ShloMosaic Idealize.ShloMosaic.ValueIdx

variable {α : Type}

/-- Row pairs: entry (R, s, k) of the [32768, 2, 1024] view is entry (2R + s, k) of the matrix. -/
theorem pair_apply (x : (⟨2, ![65536, 1024]⟩ : Shape).Idx → α)
    (h : (⟨2, ![65536, 1024]⟩ : Shape).ShapeCasts ⟨3, ![32768, 2, 1024]⟩) (R : Fin 32768) (s : Fin 2) (k : Fin 1024) :
    shapeCast (⟨3, ![32768, 2, 1024]⟩ : Shape) x h (ix3 R s k)
      = x (ix2 (⟨2 * R.val + s.val, by have := R.isLt; have := s.isLt; omega⟩ : Fin 65536) k) :=
  shapeCast_apply x h _ _ (by
    rw [Shape.rowMajor_val_two, Shape.rowMajor_val_three]
    show (2 * R.val + s.val) * 1024 + k.val = (R.val * 2 + s.val) * 1024 + k.val
    omega)

/-- The first layer's weights transposed: entry (k, m) is entry (m, k). -/
theorem transpose1_apply (W : (⟨2, ![256, 1024]⟩ : Shape).Idx → α)
    (h : (⟨2, ![256, 1024]⟩ : Shape).Transposes [1, 0] ⟨2, ![1024, 256]⟩) (k : Fin 1024) (m : Fin 256) :
    transpose (⟨2, ![1024, 256]⟩ : Shape) [1, 0] W h (ix2 k m) = W (ix2 m k) :=
  transpose_apply _ W h _ _ (fun b => match b with | ⟨0, _⟩ => rfl | ⟨1, _⟩ => rfl)

/-- The second layer's weights transposed: entry (m, o) is entry (o, m). -/
theorem transpose2_apply (W : (⟨2, ![64, 256]⟩ : Shape).Idx → α)
    (h : (⟨2, ![64, 256]⟩ : Shape).Transposes [1, 0] ⟨2, ![256, 64]⟩) (m : Fin 256) (o : Fin 64) :
    transpose (⟨2, ![256, 64]⟩ : Shape) [1, 0] W h (ix2 m o) = W (ix2 o m) :=
  transpose_apply _ W h _ _ (fun b => match b with | ⟨0, _⟩ => rfl | ⟨1, _⟩ => rfl)

/-- A 256-vector as a one-row matrix: entry (0, m) is entry m. -/
theorem row256_apply (b : (⟨1, ![256]⟩ : Shape).Idx → α)
    (h : (⟨1, ![256]⟩ : Shape).ShapeCasts ⟨2, ![1, 256]⟩) (m : Fin 256) :
    shapeCast (⟨2, ![1, 256]⟩ : Shape) b h (ix2 (0 : Fin 1) m) = b (ix1 m) :=
  shapeCast_apply b h _ _ (by
    rw [Shape.rowMajor_val_one, Shape.rowMajor_val_two]
    show m.val = 0 * 256 + m.val
    omega)

/-- A 64-vector as a one-row matrix: entry (0, o) is entry o. -/
theorem row64_apply (b : (⟨1, ![64]⟩ : Shape).Idx → α)
    (h : (⟨1, ![64]⟩ : Shape).ShapeCasts ⟨2, ![1, 64]⟩) (o : Fin 64) :
    shapeCast (⟨2, ![1, 64]⟩ : Shape) b h (ix2 (0 : Fin 1) o) = b (ix1 o) :=
  shapeCast_apply b h _ _ (by
    rw [Shape.rowMajor_val_one, Shape.rowMajor_val_two]
    show o.val = 0 * 64 + o.val
    omega)

/-- Unpacking: entry (r, o) of the [65536, 64] view is packed entry (r / 2, (r mod 2)·64 + o). -/
theorem unpack_apply (P : (⟨2, ![32768, 128]⟩ : Shape).Idx → α)
    (h : (⟨2, ![32768, 128]⟩ : Shape).ShapeCasts ⟨2, ![65536, 64]⟩) (r : Fin 65536) (o : Fin 64) :
    shapeCast (⟨2, ![65536, 64]⟩ : Shape) P h (ix2 r o)
      = P (ix2 (⟨r.val / 2, by have := r.isLt; omega⟩ : Fin 32768)
          (⟨r.val % 2 * 64 + o.val, by have := o.isLt; omega⟩ : Fin 128)) :=
  shapeCast_apply P h _ _ (by
    rw [Shape.rowMajor_val_two, Shape.rowMajor_val_two]
    show r.val / 2 * 128 + (r.val % 2 * 64 + o.val) = r.val * 64 + o.val
    omega)

end Cert.Mlp.Layout

end
-- ==== Proof.HostIn.lean ====
/-
  What the region finds in the arrays it stages.

  Before the kernel is launched the host pairs the input's rows ([65536, 1024] viewed [32768, 2, 1024]), transposes
  each weight matrix and narrows it to bf16, and views each bias vector as a one-row matrix. So the five arrays the
  windows read are these operations of the arguments, whatever the float instance.
-/
import proofs.«100786_j91027536872013_2_alg».proof.Proof.Gen.KernelIdeal.Frame
import Idealize.ShloMosaic.Lib.StableHlo.Run

noncomputable section

namespace Cert.KernelIdeal.HostIn

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ)

/-- The paired input: the first argument's rows two by two. -/
theorem paired (c : Dev nD) : V m c main_v6
    = shapeCast S32768x2x1024 (m ((c : Thread nD τ).loc main_arg0)) shapeCasts_S65536x1024_S32768x2x1024 := by
  show StableHlo.after hostOps0 (fun b => m (c, b)) (Proc.devRef .tc main_v6) = _
  after_results <;> rfl

/-- The first layer's weights, transposed and narrowed. -/
theorem weights1 (c : Dev nD) : V m c main_v1
    = truncf .bf16 (transpose S1024x256 [1, 0] (m ((c : Thread nD τ).loc main_arg1)) transposes_S256x1024_S1024x256_1_0)
        bitsLt_bf16_f32 := by
  show StableHlo.after hostOps0 (fun b => m (c, b)) (Proc.devRef .tc main_v1) = _
  after_results <;> rfl

/-- The first layer's bias as a one-row matrix. -/
theorem bias1 (c : Dev nD) : V m c main_v4
    = shapeCast S1x256 (m ((c : Thread nD τ).loc main_arg2)) shapeCasts_S256_S1x256 := by
  show StableHlo.after hostOps0 (fun b => m (c, b)) (Proc.devRef .tc main_v4) = _
  after_results <;> rfl

/-- The second layer's weights, transposed and narrowed. -/
theorem weights2 (c : Dev nD) : V m c main_v3
    = truncf .bf16 (transpose S256x64 [1, 0] (m ((c : Thread nD τ).loc main_arg3)) transposes_S64x256_S256x64_1_0)
        bitsLt_bf16_f32 := by
  show StableHlo.after hostOps0 (fun b => m (c, b)) (Proc.devRef .tc main_v3) = _
  after_results <;> rfl

/-- The second layer's bias as a one-row matrix. -/
theorem bias2 (c : Dev nD) : V m c main_v5
    = shapeCast S1x64 (m ((c : Thread nD τ).loc main_arg4)) shapeCasts_S64_S1x64 := by
  show StableHlo.after hostOps0 (fun b => m (c, b)) (Proc.devRef .tc main_v5) = _
  after_results <;> rfl

end Cert.KernelIdeal.HostIn

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Tile.lean ====
/-
  One grid point's stored tile, entry by entry.

  The body loads the two row slabs of its [1024, 2, 1024] block, runs each through both layers against the whole
  transposed weight blocks and the one-row bias blocks, and stores the two [1024, 64] results side by side along the
  lanes. At the extended reals the changes of float format are the identity and a matrix product into a zero
  accumulator is the plain sum of products, so entry (p, c) of the stored tile is row (p, c / 64) of the block through
  the network at output c mod 64.
-/
import proofs.«100786_j91027536872013_2_alg».proof.Proof.Gen.KernelIdeal.Frame
import proofs.«100786_j91027536872013_2_alg».proof.Proof.Spec
import proofs.«100786_j91027536872013_2_alg».proof.Proof.LibPlainDot
import Idealize.ShloMosaic.Lib.Pipeline.Value
import Idealize.ShloMosaic.Lib.ValueIdx

noncomputable section

open scoped BigOperators

namespace Cert.KernelIdeal.Tile

open Idealize.ShloMosaic Idealize.ShloMosaic.ValueIdx Cert.KernelIdeal Cert.KernelIdeal.Gen

/-- The zero offsets of a whole-buffer load at rank two, spelt as the constant function. -/
theorem hz2 : (![0, 0] : Fin 2 → Nat) = fun _ => 0 := funext fun a => by fin_cases a <;> rfl

/-- A shape cast to the same shape changes nothing: the first weight block. -/
theorem pay2_eq (v0 : Vec Ideal S1024x256 .bf16) : k0_pay2 (F := Ideal) v0 = v0 :=
  shapeCast_self v0 _

/-- The second weight block likewise. -/
theorem pay3_eq (v2 : Vec Ideal S256x64 .bf16) : k0_pay3 (F := Ideal) v2 = v2 :=
  shapeCast_self v2 _

/-- Row p of the slab viewed [1024, 1024] is row (p, 0) of the [1024, 1, 1024] slab. -/
theorem slab_apply (v8 : Vec Ideal S1024x1x1024 .f32) (p : Fin 1024) (k : Fin 1024) :
    shapeCast S1024x1024 v8 shapeCasts_S1024x1x1024_S1024x1024 (ix2 p k) = v8 (ix3 p (0 : Fin 1) k) := by
  refine shapeCast_apply v8 _ (ix2 p k) (ix3 p (0 : Fin 1) k) ?_
  rw [Shape.rowMajor_val_two, Shape.rowMajor_val_three]
  show (p.val * 1 + 0) * 1024 + k.val = p.val * 1024 + k.val
  omega

/-- The first bias, flattened, made a row again and repeated down the rows, is the bias row at every row. -/
theorem bias1_apply (v4 : Vec Ideal S1x256 .f32) (p : Fin 1024) (m : Fin 256) :
    broadcastTo S1024x256 (shapeCast S1x256 (k0_pay4 (F := Ideal) v4) shapeCasts_S256_S1x256) broadcasts_S1x256_S1024x256 (ix2 p m)
      = v4 (ix2 (0 : Fin 1) m) := by
  have e : shapeCast S1x256 (k0_pay4 (F := Ideal) v4) shapeCasts_S256_S1x256 = v4 :=
    shapeCast_shapeCast v4 shapeCasts_S1x256_S256 shapeCasts_S256_S1x256
  rw [e]
  refine broadcastTo_apply v4 _ (ix2 p m) (ix2 (0 : Fin 1) m) ?_
  intro a
  match a with
  | ⟨0, _⟩ => rfl
  | ⟨1, _⟩ => rfl

/-- The second bias likewise. -/
theorem bias2_apply (v6 : Vec Ideal S1x64 .f32) (p : Fin 1024) (o : Fin 64) :
    broadcastTo S1024x64 (shapeCast S1x64 (k0_pay5 (F := Ideal) v6) shapeCasts_S64_S1x64) broadcasts_S1x64_S1024x64 (ix2 p o)
      = v6 (ix2 (0 : Fin 1) o) := by
  have e : shapeCast S1x64 (k0_pay5 (F := Ideal) v6) shapeCasts_S64_S1x64 = v6 :=
    shapeCast_shapeCast v6 shapeCasts_S1x64_S64 shapeCasts_S64_S1x64
  rw [e]
  refine broadcastTo_apply v6 _ (ix2 p o) (ix2 (0 : Fin 1) o) ?_
  intro a
  match a with
  | ⟨0, _⟩ => rfl
  | ⟨1, _⟩ => rfl

/-- The first matrix product into the zero accumulator, at (p, m): the plain sum of products. -/
theorem mm1_apply (l : FVec Ideal S1024x1024 .bf16) (w : FVec Ideal S1024x256 .bf16) (p : Fin 1024) (m : Fin 256) :
    matmul dot_S1024x1024_S1024x256_S1024x256_1_0_0_1_n_n none l w (constant (F := Ideal) S1024x256 .f32 0x00000000#32) (ix2 p m)
      = ∑ k : Fin 1024, l (ix2 p k) * w (ix2 k m) :=
  Cert.PlainDot.matmul_zero_apply 1024 1024 256 none l w (ix2 p m)

/-- The second matrix product into the zero accumulator, at (p, o). -/
theorem mm2_apply (l : FVec Ideal S1024x256 .bf16) (w : FVec Ideal S256x64 .bf16) (p : Fin 1024) (o : Fin 64) :
    matmul dot_S1024x256_S256x64_S1024x64_1_0_0_1_n_n none l w (constant (F := Ideal) S1024x64 .f32 0x00000000#32) (ix2 p o)
      = ∑ m : Fin 256, l (ix2 p m) * w (ix2 m o) :=
  Cert.PlainDot.matmul_zero_apply 1024 256 64 none l w (ix2 p o)

/-- The hidden layer of a loaded slab at (p, m): unit m of the first layer on row (p, 0) of the slab. -/
theorem hidden_apply (v0 : Vec Ideal S1024x256 .bf16) (v4 : Vec Ideal S1x256 .f32) (v8 : Vec Ideal S1024x1x1024 .f32)
    (p : Fin 1024) (m : Fin 256) :
    maximumf (F := Ideal)
        (addf
          (matmul dot_S1024x1024_S1024x256_S1024x256_1_0_0_1_n_n none
            (truncf .bf16 (shapeCast S1024x1024 v8 shapeCasts_S1024x1x1024_S1024x1024) bitsLt_bf16_f32)
            (k0_pay2 v0) (constant S1024x256 .f32 0x00000000#32))
          (broadcastTo S1024x256 (shapeCast S1x256 (k0_pay4 v4) shapeCasts_S256_S1x256) broadcasts_S1x256_S1024x256))
        (broadcast S1024x256 (Scalar.ofBits .f32 0x00000000#32)) (ix2 p m)
      = Cert.Mlp.neuron (fun k => v8 (ix3 p (0 : Fin 1) k)) (fun k => v0 (ix2 k m)) (v4 (ix2 (0 : Fin 1) m)) := by
  unfold Cert.Mlp.neuron
  refine (maximumf_apply _ _ _).trans ?_
  refine congrArg₂ max ?_ rfl
  refine (addf_apply _ _ _).trans ?_
  refine congrArg₂ (· + ·) ?_ (bias1_apply v4 p m)
  refine (mm1_apply _ _ p m).trans ?_
  exact Finset.sum_congr rfl fun k _ => congrArg₂ (· * ·) (slab_apply v8 p k) (congrFun (pay2_eq v0) (ix2 k m))

/-- The second layer of a loaded slab before its rectifier, at (p, o). -/
theorem pay7_apply (v0 : Vec Ideal S1024x256 .bf16) (v2 : Vec Ideal S256x64 .bf16) (v4 : Vec Ideal S1x256 .f32)
    (v6 : Vec Ideal S1x64 .f32) (v8 : Vec Ideal S1024x1x1024 .f32) (p : Fin 1024) (o : Fin 64) :
    k0_pay7 (F := Ideal) v0 v2 v4 v6 v8 (ix2 p o)
      = (∑ m : Fin 256, Cert.Mlp.neuron (fun k => v8 (ix3 p (0 : Fin 1) k)) (fun k => v0 (ix2 k m)) (v4 (ix2 (0 : Fin 1) m))
            * v2 (ix2 m o)) + v6 (ix2 (0 : Fin 1) o) := by
  unfold k0_pay7
  refine (addf_apply _ _ _).trans ?_
  refine congrArg₂ (· + ·) ?_ (bias2_apply v6 p o)
  refine (mm2_apply _ _ p o).trans ?_
  exact Finset.sum_congr rfl fun m _ => congrArg₂ (· * ·) (hidden_apply v0 v4 v8 p m) (congrFun (pay3_eq v2) (ix2 m o))

/-- The first slab's payload is the second's form under the rectifier. -/
theorem pay6_eq (v0 : Vec Ideal S1024x256 .bf16) (v2 : Vec Ideal S256x64 .bf16) (v4 : Vec Ideal S1x256 .f32)
    (v6 : Vec Ideal S1x64 .f32) (v8 : Vec Ideal S1024x1x1024 .f32) :
    k0_pay6 (F := Ideal) v0 v2 v4 v6 v8
      = maximumf (k0_pay7 (F := Ideal) v0 v2 v4 v6 v8) (broadcast S1024x64 (Scalar.ofBits .f32 0x00000000#32)) := rfl

/-- A slab's second layer under the rectifier, at (p, o): the network's row on the slab's row (p, 0), at output o. -/
theorem rect_apply (v0 : Vec Ideal S1024x256 .bf16) (v2 : Vec Ideal S256x64 .bf16) (v4 : Vec Ideal S1x256 .f32)
    (v6 : Vec Ideal S1x64 .f32) (v8 : Vec Ideal S1024x1x1024 .f32) (p : Fin 1024) (o : Fin 64) :
    max (k0_pay7 (F := Ideal) v0 v2 v4 v6 v8 (ix2 p o)) Cert.Mlp.zero
      = Cert.Mlp.row (fun k => v8 (ix3 p (0 : Fin 1) k)) (fun k m => v0 (ix2 k m)) (fun m => v4 (ix2 (0 : Fin 1) m))
          (fun m o' => v2 (ix2 m o')) (fun o' => v6 (ix2 (0 : Fin 1) o')) o := by
  rw [pay7_apply]
  rfl

/-- The whole-buffer loads read their buffers. -/
theorem ld0 (x1 : Vec Ideal S1024x256 .bf16) : View.ld x1 r0_0 = x1 :=
  View.ld_unit_zero (S := S1024x256) hz2 _ x1
theorem ld1 (x3 : Vec Ideal S256x64 .bf16) : View.ld x3 r0_1 = x3 :=
  View.ld_unit_zero (S := S256x64) hz2 _ x3
theorem ld2 (x2 : Vec Ideal S1x256 .f32) : View.ld x2 r0_2 = x2 :=
  View.ld_unit_zero (S := S1x256) hz2 _ x2
theorem ld3 (x4 : Vec Ideal S1x64 .f32) : View.ld x4 r0_3 = x4 :=
  View.ld_unit_zero (S := S1x64) hz2 _ x4

/-- The load of slab 0 reads the block at (p, 0, k). -/
theorem ld4_apply (x0 : Vec Ideal S1024x2x1024 .f32) (p : Fin 1024) (k : Fin 1024) :
    View.ld x0 r0_4 (ix3 p (0 : Fin 1) k) = x0 (ix3 p (0 : Fin 2) k) := by
  refine congrArg x0 (funext fun a => Fin.ext ?_)
  match a with
  | ⟨0, _⟩ => show 0 + 1 * p.val = p.val; omega
  | ⟨1, _⟩ => show 0 + 1 * 0 = 0; rfl
  | ⟨2, _⟩ => show 0 + 1 * k.val = k.val; omega

/-- The load of slab 1 reads the block at (p, 1, k). -/
theorem ld5_apply (x0 : Vec Ideal S1024x2x1024 .f32) (p : Fin 1024) (k : Fin 1024) :
    View.ld x0 r0_5 (ix3 p (0 : Fin 1) k) = x0 (ix3 p (1 : Fin 2) k) := by
  refine congrArg x0 (funext fun a => Fin.ext ?_)
  match a with
  | ⟨0, _⟩ => show 0 + 1 * p.val = p.val; omega
  | ⟨1, _⟩ => show 1 + 1 * 0 = 1; rfl
  | ⟨2, _⟩ => show 0 + 1 * k.val = k.val; omega

/-- Slab 0's stored piece at (p, o): row (p, 0) of the block through the network at output o. -/
theorem slab0_apply (x0 : Vec Ideal S1024x2x1024 .f32) (x1 : Vec Ideal S1024x256 .bf16) (x2 : Vec Ideal S1x256 .f32)
    (x3 : Vec Ideal S256x64 .bf16) (x4 : Vec Ideal S1x64 .f32) (p : Fin 1024) (o : Fin 64) :
    k0_pay6 (F := Ideal) (View.ld x1 r0_0) (View.ld x3 r0_1) (View.ld x2 r0_2) (View.ld x4 r0_3) (View.ld x0 r0_4) (ix2 p o)
      = Cert.Mlp.row (fun k => x0 (ix3 p (0 : Fin 2) k)) (fun k m => x1 (ix2 k m)) (fun m => x2 (ix2 (0 : Fin 1) m))
          (fun m o' => x3 (ix2 m o')) (fun o' => x4 (ix2 (0 : Fin 1) o')) o := by
  rw [ld0 x1, ld1 x3, ld2 x2, ld3 x4]
  refine (congrFun (pay6_eq x1 x3 x2 x4 (View.ld x0 r0_4)) (ix2 p o)).trans ?_
  refine (rect_apply x1 x3 x2 x4 (View.ld x0 r0_4) p o).trans ?_
  exact congrArg (fun a => Cert.Mlp.row a (fun k m => x1 (ix2 k m)) (fun m => x2 (ix2 (0 : Fin 1) m))
    (fun m o' => x3 (ix2 m o')) (fun o' => x4 (ix2 (0 : Fin 1) o')) o) (funext fun k => ld4_apply x0 p k)

/-- Slab 1's piece under the store's rectifier at (p, o): row (p, 1) of the block through the network at output o. -/
theorem slab1_apply (x0 : Vec Ideal S1024x2x1024 .f32) (x1 : Vec Ideal S1024x256 .bf16) (x2 : Vec Ideal S1x256 .f32)
    (x3 : Vec Ideal S256x64 .bf16) (x4 : Vec Ideal S1x64 .f32) (p : Fin 1024) (o : Fin 64) :
    max (k0_pay7 (F := Ideal) (View.ld x1 r0_0) (View.ld x3 r0_1) (View.ld x2 r0_2) (View.ld x4 r0_3) (View.ld x0 r0_5) (ix2 p o))
        Cert.Mlp.zero
      = Cert.Mlp.row (fun k => x0 (ix3 p (1 : Fin 2) k)) (fun k m => x1 (ix2 k m)) (fun m => x2 (ix2 (0 : Fin 1) m))
          (fun m o' => x3 (ix2 m o')) (fun o' => x4 (ix2 (0 : Fin 1) o')) o := by
  rw [ld0 x1, ld1 x3, ld2 x2, ld3 x4]
  refine (rect_apply x1 x3 x2 x4 (View.ld x0 r0_5) p o).trans ?_
  exact congrArg (fun a => Cert.Mlp.row a (fun k m => x1 (ix2 k m)) (fun m => x2 (ix2 (0 : Fin 1) m))
    (fun m o' => x3 (ix2 m o')) (fun o' => x4 (ix2 (0 : Fin 1) o')) o) (funext fun k => ld5_apply x0 p k)

/-- Entry (p, s·64 + o) of a grid point's tile is row (p, s) of its block through the network at output o. -/
theorem block_eq (x0 : Vec Ideal S1024x2x1024 .f32) (x1 : Vec Ideal S1024x256 .bf16) (x2 : Vec Ideal S1x256 .f32)
    (x3 : Vec Ideal S256x64 .bf16) (x4 : Vec Ideal S1x64 .f32) (p : Fin 1024) (c : Fin 128) (s : Fin 2) (o : Fin 64)
    (hc : c.val = s.val * 64 + o.val) :
    Cert.Mlp.block x0 x1 x2 x3 x4 p c
      = Cert.Mlp.row (fun k => x0 (ix3 p s k)) (fun k m => x1 (ix2 k m)) (fun m => x2 (ix2 (0 : Fin 1) m))
          (fun m o' => x3 (ix2 m o')) (fun o' => x4 (ix2 (0 : Fin 1) o')) o := by
  have hs : (⟨c.val / 64, by have := c.isLt; omega⟩ : Fin 2) = s :=
    Fin.ext (by show c.val / 64 = s.val; have := o.isLt; omega)
  have ho : (⟨c.val % 64, Nat.mod_lt _ (by decide)⟩ : Fin 64) = o :=
    Fin.ext (by show c.val % 64 = o.val; have := o.isLt; omega)
  unfold Cert.Mlp.block
  rw [hs, ho]

/-- Entry (p, c) of the tile the body stores, as a function of the five input blocks. -/
theorem tile_apply (x0 : Vec Ideal S1024x2x1024 .f32) (x1 : Vec Ideal S1024x256 .bf16) (x2 : Vec Ideal S1x256 .f32)
    (x3 : Vec Ideal S256x64 .bf16) (x4 : Vec Ideal S1x64 .f32) (p : Fin 1024) (c : Fin 128) :
    k0_pay1 (F := Ideal)
        (k0_pay6 (View.ld x1 r0_0) (View.ld x3 r0_1) (View.ld x2 r0_2) (View.ld x4 r0_3) (View.ld x0 r0_4))
        (k0_pay7 (View.ld x1 r0_0) (View.ld x3 r0_1) (View.ld x2 r0_2) (View.ld x4 r0_3) (View.ld x0 r0_5))
        (ix2 p c)
      = Cert.Mlp.block x0 x1 x2 x3 x4 p c := by
  unfold k0_pay1
  by_cases h : c.val < 64
  · -- lanes 0..63: the first piece at (p, c)
    refine (concatenate_pair_apply_left (t := S1024x128) (s₁ := S1024x64) (s₂ := S1024x64) 1 _ _
      concatenates_S1024x64_S1024x64_S1024x128_d1 (ix2 p c) rfl (ix2 p (⟨c.val, h⟩ : Fin 64))
      (fun b => match b with | ⟨0, _⟩ => rfl | ⟨1, _⟩ => rfl)).trans ?_
    refine (slab0_apply x0 x1 x2 x3 x4 p ⟨c.val, h⟩).trans ?_
    exact (block_eq x0 x1 x2 x3 x4 p c 0 ⟨c.val, h⟩ (by show c.val = 0 * 64 + c.val; omega)).symm
  · -- lanes 64..127: the second piece at (p, c − 64)
    have h' : c.val - 64 < 64 := by have := c.isLt; omega
    refine (concatenate_pair_apply_right (t := S1024x128) (s₁ := S1024x64) (s₂ := S1024x64) 1 _ _
      concatenates_S1024x64_S1024x64_S1024x128_d1 (ix2 p c) rfl rfl (ix2 p (⟨c.val - 64, h'⟩ : Fin 64))
      (fun b => match b with | ⟨0, _⟩ => fun _ => rfl | ⟨1, _⟩ => fun hb => absurd rfl hb)
      (by show c.val - 64 + 64 = c.val; omega)).trans ?_
    refine (maximumf_apply _ _ _).trans ?_
    refine (slab1_apply x0 x1 x2 x3 x4 p ⟨c.val - 64, h'⟩).trans ?_
    exact (block_eq x0 x1 x2 x3 x4 p c 1 ⟨c.val - 64, h'⟩ (by show c.val = 1 * 64 + (c.val - 64); omega)).symm

end Cert.KernelIdeal.Tile

end
-- ==== Proof.Blocks.lean ====
/-
  From one grid point's tile to the whole packed array.

  Point t of the 32 stages row pairs t·1024 … t·1024 + 1023 of the paired input and the whole of the four
  parameter arrays, and writes back rows t·1024 … t·1024 + 1023 of the [32768, 128] output. Its blocks are what the
  arguments hold there (row pair R, slab s is input row 2R + s; the weight blocks are the transposes; the bias
  blocks are the biases as rows), so the tile it stores is its rows of the packed result; the 32 row ranges
  cover the output, so the array ends as the packed result.
-/
import proofs.«100786_j91027536872013_2_alg».proof.Proof.Gen.KernelIdeal.Frame
import proofs.«100786_j91027536872013_2_alg».proof.Proof.Spec
import proofs.«100786_j91027536872013_2_alg».proof.Proof.Layout
import proofs.«100786_j91027536872013_2_alg».proof.Proof.HostIn
import proofs.«100786_j91027536872013_2_alg».proof.Proof.Tile
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The packed result of the arguments core c was launched with. -/
def P (c : Dev nD) : S32768x128.Idx → EReal :=
  Cert.Mlp.packed (m ((c : Thread nD τ).loc main_arg0)) (m ((c : Thread nD τ).loc main_arg1))
    (m ((c : Thread nD τ).loc main_arg2)) (m ((c : Thread nD τ).loc main_arg3)) (m ((c : Thread nD τ).loc main_arg4))

theorem hz : (![0, 0] : Fin 2 → Nat) = fun _ => 0 := funext fun a => by fin_cases a <;> rfl

/-- The printed index maps over the grid: the input's and the output's row block is the point's number, every
    other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := by
  have h : cfg0.N = 32 := N_0
  have := t.isLt
  omega

/-! ## The input blocks at a point, as entries of the arguments -/

/-- Row pair p, slab s of point t's input block is input row 2(t·1024 + p) + s. -/
theorem blk_x (c : Dev nD) (t : Fin cfg0.N) (p : Fin 1024) (s : Fin 2) (k : Fin 1024) :
    iblk m c 0 t (ix3 p s k)
      = m ((c : Thread nD τ).loc main_arg0)
          (ix2 (⟨2 * (t.val * 1024 + p.val) + s.val, by have := t_lt t; have := p.isLt; have := s.isLt; omega⟩ : Fin 65536) k) := by
  obtain ⟨e0, e1, e2, -⟩ := idx_facts t
  have e : ((cfg0.win 0).blk t).view.emb (ix3 p s k)
      = ix3 (⟨t.val * 1024 + p.val, by have := t_lt t; have := p.isLt; omega⟩ : Fin 32768) s k := by
    funext a; apply Fin.ext
    match a with
    | ⟨0, _⟩ => show win0_0.index t (0 : Fin 3) * 1024 + 1 * p.val = t.val * 1024 + p.val; omega
    | ⟨1, _⟩ => show win0_0.index t (1 : Fin 3) * 2 + 1 * s.val = s.val; omega
    | ⟨2, _⟩ => show win0_0.index t (2 : Fin 3) * 1024 + 1 * k.val = k.val; omega
  show V m c main_v6 (((cfg0.win 0).blk t).view.emb (ix3 p s k)) = _
  rw [HostIn.paired m c, e]
  exact Cert.Mlp.Layout.pair_apply _ _ _ s k

/-- The first weight block is the first layer's weights transposed. -/
theorem blk_w1 (c : Dev nD) (t : Fin cfg0.N) (k : Fin 1024) (j : Fin 256) :
    iblk m c 1 t (ix2 k j) = m ((c : Thread nD τ).loc main_arg1) (ix2 j k) := by
  obtain ⟨-, -, -, e0, e1, -⟩ := idx_facts t
  have e : ((cfg0.win 1).blk t).view.emb (ix2 k j) = ix2 k j := by
    funext a; apply Fin.ext
    match a with
    | ⟨0, _⟩ => show win0_1.index t (0 : Fin 2) * 1024 + 1 * k.val = k.val; omega
    | ⟨1, _⟩ => show win0_1.index t (1 : Fin 2) * 256 + 1 * j.val = j.val; omega
  show V m c main_v1 (((cfg0.win 1).blk t).view.emb (ix2 k j)) = _
  rw [HostIn.weights1 m c, e]
  exact Cert.Mlp.Layout.transpose1_apply _ _ k j

/-- The first bias block is the first layer's bias as a row. -/
theorem blk_b1 (c : Dev nD) (t : Fin cfg0.N) (j : Fin 256) :
    iblk m c 2 t (ix2 (0 : Fin 1) j) = m ((c : Thread nD τ).loc main_arg2) (ix1 j) := by
  obtain ⟨-, -, -, -, -, e0, e1, -⟩ := idx_facts t
  have e : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 256 + 1 * j.val = j.val; omega
  show V m c main_v4 (((cfg0.win 2).blk t).view.emb (ix2 (0 : Fin 1) j)) = _
  rw [HostIn.bias1 m c, e]
  exact Cert.Mlp.Layout.row256_apply _ _ j

/-- The second weight block is the second layer's weights transposed. -/
theorem blk_w2 (c : Dev nD) (t : Fin cfg0.N) (j : Fin 256) (o : Fin 64) :
    iblk m c 3 t (ix2 j o) = m ((c : Thread nD τ).loc main_arg3) (ix2 o j) := by
  obtain ⟨-, -, -, -, -, -, -, e0, e1, -⟩ := idx_facts t
  have e : ((cfg0.win 3).blk t).view.emb (ix2 j o) = ix2 j o := by
    funext a; apply Fin.ext
    match a with
    | ⟨0, _⟩ => show win0_3.index t (0 : Fin 2) * 256 + 1 * j.val = j.val; omega
    | ⟨1, _⟩ => show win0_3.index t (1 : Fin 2) * 64 + 1 * o.val = o.val; omega
  show V m c main_v3 (((cfg0.win 3).blk t).view.emb (ix2 j o)) = _
  rw [HostIn.weights2 m c, e]
  exact Cert.Mlp.Layout.transpose2_apply _ _ j o

/-- The second bias block is the second layer's bias as a row. -/
theorem blk_b2 (c : Dev nD) (t : Fin cfg0.N) (o : Fin 64) :
    iblk m c 4 t (ix2 (0 : Fin 1) o) = m ((c : Thread nD τ).loc main_arg4) (ix1 o) := by
  obtain ⟨-, -, -, -, -, -, -, -, -, e0, e1, -⟩ := idx_facts t
  have e : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 64 + 1 * o.val = o.val; omega
  show V m c main_v5 (((cfg0.win 4).blk t).view.emb (ix2 (0 : Fin 1) o)) = _
  rw [HostIn.bias2 m c, e]
  exact Cert.Mlp.Layout.row64_apply _ _ o

/-! ## What a point writes back, the cover, the array after the region -/

/-- WHAT POINT t WRITES BACK is its 1024 rows of the packed result. -/
theorem flushed_eq (c : Dev nD) (t : Fin cfg0.N) :
    (dats m 0 c).flushed 5 t = ((cfg0.win 5).blk t).view.read (Elt Ideal) (P m c) := by
  show (cfg0.win 5).cut (grid0.coords t) ((dats m 0 c).after 5 t) = _
  rw [after0_5]
  unfold out0_5
  rw [View.canon_unit_zero hz]
  funext j
  obtain ⟨p, cc, rfl⟩ : ∃ (p : Fin 1024) (cc : Fin 128), j = ix2 p cc := ⟨j 0, j 1, eq_ix2 j⟩
  refine (Tile.tile_apply (iblk m c 0 t) (iblk m c 1 t) (iblk m c 2 t) (iblk m c 3 t) (iblk m c 4 t) p cc).trans ?_
  obtain ⟨-, -, -, -, -, -, -, -, -, -, -, e0, e1⟩ := idx_facts t
  have e : ((cfg0.win 5).blk t).view.emb (ix2 p cc)
      = ix2 (⟨t.val * 1024 + p.val, by have := t_lt t; have := p.isLt; omega⟩ : Fin 32768) cc := by
    funext a; apply Fin.ext
    match a with
    | ⟨0, _⟩ => show win0_5.index t (0 : Fin 2) * 1024 + 1 * p.val = t.val * 1024 + p.val; omega
    | ⟨1, _⟩ => show win0_5.index t (1 : Fin 2) * 128 + 1 * cc.val = cc.val; omega
  show _ = P m c (((cfg0.win 5).blk t).view.emb (ix2 p cc))
  rw [e]
  exact Cert.Mlp.block_eq_packed (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) t.val (t_lt t) p cc
    (blk_x m c t p) (blk_w1 m c t) (blk_b1 m c t) (blk_w2 m c t) (blk_b2 m c t)

/-- An index of the output array is in point t's block iff each coordinate is in the block's range. -/
theorem mem_blk (t : Fin cfg0.N) (i : S32768x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v7).slice (win0_5.rect t)).set ↔ _
  rw [View.set_slice_whole, Rect.mem_set_unit]
  exact Iff.rfl

/-- Every output row is in some point's block: row R in point R / 1024's. -/
theorem cover (i : S32768x128.Idx) :
    ∃ t : Fin cfg0.N, (cfg0.win 5).flush t = true ∧ i ∈ ((cfg0.win 5).blk t).view.set := by
  have hi0 : (i 0).val < 32768 := (i 0).isLt
  have hi1 : (i 1).val < 128 := (i 1).isLt
  have hN : cfg0.N = 32 := N_0
  obtain ⟨t, ht⟩ : ∃ t : Fin cfg0.N, t.val = (i 0).val / 1024 := ⟨⟨(i 0).val / 1024, by omega⟩, rfl⟩
  obtain ⟨-, -, -, -, -, -, -, -, -, -, -, e0, e1⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 128 ≤ (i 1).val ∧ (i 1).val < win0_5.index t (1 : Fin 2) * 128 + 128
    omega

/-- THE OUTPUT ARRAY after the region is the packed result. -/
theorem final (c : Dev nD) : (dats m 0 c).arrAt 5 cfg0.N = P m c :=
  (dats m 0 c).arrAt_eq_of_cover 5 (P m c) (fun t _ => flushed_eq m c t) cover

end Cert.KernelIdeal.Blocks

end
-- ==== Proof.KValue.lean ====
/-
  The kernel's program run to the end: its result array is G.

  After the region the host views the packed [32768, 128] array as [65536, 64], the same row-major sequence, so
  entry (r, o) of the result is packed entry (r / 2, (r mod 2)·64 + o), which is row r of the network at output o.
-/
import proofs.«100786_j91027536872013_2_alg».proof.Proof.Blocks
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The host's last operation applied to what the region left: the output array, unpacked. -/
theorem tail (c : Dev nD) :
    Pipeline.afterTail₀ cfgs (dats m) 0 (V0 m) [hostOps1] c main_v8
      = shapeCast S65536x64 ((dats m 0 c).arrAt 5 cfg0.N) shapeCasts_S32768x128_S65536x64 := by
  unfold Pipeline.afterTail₀
  show StableHlo.after hostOps1 _ (Proc.devRef .tc main_v8) = _
  after_results
  exact congrArg (fun A => shapeCast _ A _) (Pipeline.withArrays_arr spec0 launch0.win.arr_inj c _ _ 5)

/-- The result array is G of the arguments. -/
theorem result (c : Dev nD) :
    Pipeline.afterTail₀ cfgs (dats m) 0 (V0 m) [hostOps1] c main_v8
      = Cert.Mlp.G (m ((c : Thread nD τ).loc main_arg0)) (m ((c : Thread nD τ).loc main_arg1))
          (m ((c : Thread nD τ).loc main_arg2)) (m ((c : Thread nD τ).loc main_arg3)) (m ((c : Thread nD τ).loc main_arg4)) := by
  refine (tail m c).trans ?_
  rw [Blocks.final m c]
  funext i
  obtain ⟨r, o, rfl⟩ : ∃ (r : Fin 65536) (o : Fin 64), i = ix2 r o := ⟨i 0, i 1, eq_ix2 i⟩
  refine (Cert.Mlp.Layout.unpack_apply (Blocks.P m c) shapeCasts_S32768x128_S65536x64 r o).trans ?_
  exact Cert.Mlp.packed_unpack _ _ _ _ _ r o

/-- Every weakly fair execution of the idealized kernel's program terminates with the result array at G of the
    arguments and the arguments unchanged. -/
theorem run : θ_run defs (onTc (τ := τ) (main (F := Ideal))) ⟨m, fun _ => 0, ρ⟩ fun r => ∀ c : Dev nD,
      r.2.mem ((c.tc : Thread nD τ).loc main_v8)
        = Cert.Mlp.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.lean ====
/-
  The kernel and its reference compute the same two-layer perceptron with rectifiers,
  y = max (max (x·W1ᵀ + b1) 0 · W2ᵀ + b2) 0, over the extended reals.

  The reference is two dot_generals with broadcast biases and maxima against zero. The kernel pairs consecutive
  input rows, transposes the weights on the host, and on a grid of 32 points runs both slabs of 1024 row pairs
  through both layers (matrix products into zero accumulators; the bf16 narrowings are the identity on extended
  reals), storing the two [1024, 64] results side by side along the lanes; the host's last reshape unpacks the
  [32768, 128] array into [65536, 64]. Entry by entry both are the same sums of the same products, the same
  biases, the same maxima against the same zero word, so no input needs to be finite for the equality: the
  precondition is never opened.

  The three frames are the generated frame runs (the reference's is its generated run with the result dropped);
  the idealization rewrote nothing, so its ledger is empty; the value claim joins the kernel's run, read to its
  result array (Proof/KValue.lean over Proof/Blocks.lean, Proof/Tile.lean, Proof/HostIn.lean), and the
  reference's run, read stage by stage (Proof/RefG.lean), at the one function Cert.Mlp.G (Proof/Spec.lean).
-/
import proofs.«100786_j91027536872013_2_alg».proof.Defs
import proofs.«100786_j91027536872013_2_alg».proof.Proof.Gen.Kernel
import proofs.«100786_j91027536872013_2_alg».proof.Proof.Gen.Kernel.Skeleton
import proofs.«100786_j91027536872013_2_alg».proof.Proof.Gen.Kernel.Launch
import proofs.«100786_j91027536872013_2_alg».proof.Proof.Gen.Kernel.Points
import proofs.«100786_j91027536872013_2_alg».proof.Proof.Gen.Kernel.Frame
import proofs.«100786_j91027536872013_2_alg».proof.Proof.Gen.KernelIdeal
import proofs.«100786_j91027536872013_2_alg».proof.Proof.Gen.KernelIdeal.Skeleton
import proofs.«100786_j91027536872013_2_alg».proof.Proof.Gen.KernelIdeal.Launch
import proofs.«100786_j91027536872013_2_alg».proof.Proof.Gen.KernelIdeal.Points
import proofs.«100786_j91027536872013_2_alg».proof.Proof.Gen.KernelIdeal.Frame
import proofs.«100786_j91027536872013_2_alg».proof.Proof.Gen.ReferenceIdeal
import proofs.«100786_j91027536872013_2_alg».proof.Proof.Gen.ReferenceIdeal.Run
import proofs.«100786_j91027536872013_2_alg».proof.Proof.Gen.ReferenceIdeal.Read
import proofs.«100786_j91027536872013_2_alg».proof.Proof.Gen.Pre_finite_inputs
import proofs.«100786_j91027536872013_2_alg».proof.Proof.RefG
import proofs.«100786_j91027536872013_2_alg».proof.Proof.KValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at G of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _ _ _).trans ?_
  refine (Cert.ReferenceIdeal.RefValue.ref_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
